-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1024x512 : Shape := ⟨2, ![1024, 512]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x512 .f32) (main_arg1 : FVec F S1024x512 .f32) (main_arg2 : FVec F S1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8192x512 : Shape := ⟨2, ![8192, 512]⟩
abbrev S1024x512 : Shape := ⟨2, ![1024, 512]⟩
abbrev S1024 : Shape := ⟨1, ![1024]⟩
abbrev S_ : Shape := ⟨0, ![]⟩
abbrev S1x1024 : Shape := ⟨2, ![1, 1024]⟩
abbrev S512x1024 : Shape := ⟨2, ![512, 1024]⟩
abbrev S8192x1024 : Shape := ⟨2, ![8192, 1024]⟩
abbrev S1024x1024 : Shape := ⟨2, ![1024, 1024]⟩
abbrev S1024x1 : Shape := ⟨2, ![1024, 1]⟩

abbrev nBuf : Space → Nat
  | .hbm => 19
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S512x1024, .f32⟩
  | .hbm, ⟨17, _⟩ => ⟨S512x1024, .bf16⟩
  | .hbm, ⟨18, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_cst_0 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S1024x512_S1024_d1 : S1024x512.ReducesTo [1] S1024
  h_S_ : 0 < S_.numel
  shapeCasts_S1024_S1x1024 : S1024.ShapeCasts S1x1024
  bcast_S_S1024 : S_.BroadcastsInDim S1024 (![] : Fin 0 → Fin S1024.rank)
  bcast_S_S1024x512 : S_.BroadcastsInDim S1024x512 (![] : Fin 0 → Fin S1024x512.rank)
  transposes_S1024x512_S512x1024_1_0 : S1024x512.Transposes [1, 0] S512x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .f32 = 32 ∨ (Rect.block (s := S8192x1024) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v11) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S1024x512 : Shape := ⟨2, ![1024, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S8192x1024 : Shape := ⟨2, ![8192, 1024]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1024x512, .f32⟩
  | .hbm, ⟨8, _⟩ => ⟨S_, .f32⟩
  | .hbm, ⟨9, _⟩ => ⟨S1024, .f32⟩
  | .hbm, ⟨10, _⟩ => ⟨S512x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S1024x512_S1024_d1 : S1024x512.ReducesTo [1] S1024
  transposes_S1024x512_S512x1024_1_0 : S1024x512.Transposes [1, 0] S512x1024
  bcast_S_S8192x1024 : S_.BroadcastsInDim S8192x1024 (![] : Fin 0 → Fin S8192x1024.rank)
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x512_S512x1024_S8192x1024_1_0_0_1_n_n_wf : DotDims.WF S8192x512 S512x1024 S8192x1024 [1] [0] [0] [1] [] []

variable [Facts₀]

def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf

class Facts : Prop extends Facts₀ where

variable [Facts]
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.RbfBody.lean ====
/-
  The kernel body's result at one entry.

  At a grid point the body holds a block x of 1024 rows of the input (1024 x 512), the whole matrix w (512 x 1024),
  and two row vectors u, n (1 x 1024). Its result at row p, column q is
      exp( max( (Σ_k x[p,k]·x[p,k] + Σ_k x[p,k]·w[k,q]) + u[0,q], 0 ) · n[0,q] ):
  the row's squared norm (a lane sum kept as a column and spread along the row), the matrix product at (p, q)
  (at exact arithmetic the narrowing of x to sixteen bits changes nothing), the row vectors spread down the columns.
-/
import proofs.«115189_j23922967839461_2_alg».proof.Proof.Gen.KernelIdeal.Skeleton
import proofs.«115189_j23922967839461_2_alg».proof.Proof.LibMatmulIdx
import proofs.«115189_j23922967839461_2_alg».proof.Proof.LibKeepdims
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- A column [1024, 1] spread along the rows of a [1024, 1024] matrix reads, at (p, q), the column at p. -/
theorem spread_col {α : Type} (v : S1024x1.Idx → α) (h : S1024x1.Broadcasts S1024x1024) (p q : Fin 1024) :
    broadcastTo S1024x1024 v h (ix2 p q) = v (ix2 p 0) := by
  refine broadcastTo_apply v h _ _ fun a => ?_
  match a with
  | ⟨0, _⟩ => show p.val = if (1024 : Nat) = 1 then 0 else p.val; rw [if_neg (by decide)]
  | ⟨1, _⟩ => show 0 = if (1 : Nat) = 1 then 0 else q.val; rw [if_pos rfl]

/-- A row [1, 1024] spread down the columns of a [1024, 1024] matrix reads, at (p, q), the row at q. -/
theorem spread_row {α : Type} (v : S1x1024.Idx → α) (h : S1x1024.Broadcasts S1024x1024) (p q : Fin 1024) :
    broadcastTo S1024x1024 v h (ix2 p q) = v (ix2 0 q) := by
  refine broadcastTo_apply v h _ _ fun a => ?_
  match a with
  | ⟨0, _⟩ => show 0 = if (1 : Nat) = 1 then 0 else p.val; rw [if_pos rfl]
  | ⟨1, _⟩ => show q.val = if (1024 : Nat) = 1 then 0 else q.val; rw [if_neg (by decide)]

/-- The squared norm of row p, kept as a column and spread along the row: Σ_k v[p,k]. -/
theorem row_sum_spread (v : FVec Ideal S1024x512 .f32) (hφ : FKind.Formats .f32)
    (hacc : (0x00000000#32 : BitVec 32) = FKind.add.neutral .f32 hφ) (p q : Fin 1024) :
    broadcastTo S1024x1024 (shapeCast S1024x1 (multiReduction .add [1] S1024 v 0x00000000#32 reduces_S1024x512_S1024 hφ hacc)
        shapeCasts_S1024_S1024x1) broadcasts_S1024x1_S1024x1024 (ix2 p q)
      = ∑ k : Fin 512, v (ix2 p k) := by
  rw [spread_col, LibKeepdims.shapeCast_col_apply, LibKeepdims.sum_axis1_apply]

private abbrev D := dot_S1024x512_S512x1024_S1024x1024_1_0_0_1_n_n

/-- The matrix product of a [1024, 512] block with a [512, 1024] matrix into the zero accumulator, at (p, q):
    Σ_k l[p,k] · r[k,q]. -/
theorem product_apply {φ₁ φ₂ : FTy} (l : FVec Ideal S1024x512 φ₁) (r : FVec Ideal S512x1024 φ₂) (p q : Fin 1024) :
    matmul D none l r (constant S1024x1024 .f32 0x00000000#32) (ix2 p q) = ∑ k : Fin 512, l (ix2 p k) * r (ix2 k q) :=
  LibMatmulIdx.matmul2_apply (M := 1024) (K := 512) (N := 1024) D rfl rfl
    (fun j k => by
      unfold DotDims.lhsIdx
      rw [dif_neg (show ¬(0 : Fin S1024x512.rank) ∈ D.lhsBatch by decide), dif_pos (show (0 : Fin S1024x512.rank) ∈ D.lhsNonContracting by decide)]
      rfl)
    (fun j k => D.lhsIdx_val_of_single rfl j k)
    (fun j k => D.rhsIdx_val_of_single rfl j k)
    (fun j k => by
      unfold DotDims.rhsIdx
      rw [dif_neg (show ¬(1 : Fin S512x1024.rank) ∈ D.rhsBatch by decide), dif_pos (show (1 : Fin S512x1024.rank) ∈ D.rhsNonContracting by decide)]
      rfl)
    none l r (ix2 p q)

/-- THE BODY'S RESULT AT (p, q), from the blocks it loads. -/
theorem result_apply (x : Vec Ideal S1024x512 .f32) (w : Vec Ideal S512x1024 .bf16) (u n : Vec Ideal S1x1024 .f32) (p q : Fin 1024) :
    k0_pay1 (F := Ideal) x w u n (ix2 p q)
      = Ideal.exp (max (((∑ k : Fin 512, x (ix2 p k) * x (ix2 p k)) + ∑ k : Fin 512, x (ix2 p k) * w (ix2 k q)) + u (ix2 0 q))
          (Ideal.ofBits .f32 0x00000000#32) * n (ix2 0 q)) := by
  unfold k0_pay1
  dsimp only
  have e1 := row_sum_spread (mulf x x) (.inl rfl) rfl p q
  have e2 := product_apply (φ₁ := .bf16) (φ₂ := .bf16) (truncf .bf16 x bitsLt_bf16_f32)
    (shapeCast S512x1024 (w : FVec Ideal S512x1024 .bf16) shapeCasts_S512x1024_S512x1024) p q
  have e3 := spread_row (shapeCast S1x1024 u shapeCasts_S1x1024_S1x1024) broadcasts_S1x1024_S1024x1024 p q
  have e4 := spread_row (shapeCast S1x1024 n shapeCasts_S1x1024_S1x1024) broadcasts_S1x1024_S1024x1024 p q
  rw [shapeCast_self] at e2 e3 e4
  show Ideal.exp (max ((_ + _) + _) _ * _) = _
  simp only [shapeCast_self]
  rw [e1, e2, e3, e4]
  rfl

end Cert.KernelIdeal.Body

end
-- ==== Proof.RbfHost.lean ====
/-
  What the host computes from the centres and the log-widths before the kernel is launched, read at an entry.

  Three of the kernel's operands are written by host operations: the centres scaled by the word of `-2.0`, transposed
  (and narrowed to sixteen bits, which at exact arithmetic changes nothing): w[k, q] = (-2) · c[q, k]; the centres' squared
  norms as a row: u[0, q] = 0 + Σ_k c[q,k]·c[q,k]; and the negated inverse squared widths as a row:
  n[0, q] = -exp((-2) · s[q]).
-/
import proofs.«115189_j23922967839461_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo

/-- The scaled, transposed centres as a function of the centres. -/
def scaledT (c : FVec Ideal S1024x512 .f32) : FVec Ideal S512x1024 .bf16 :=
  truncf .bf16 (transpose S512x1024 [1, 0]
    (mulf (broadcastInDim S1024x512 ![] bcast_S_S1024x512 (constant (F := Ideal) S_ .f32 0xC0000000#32)) c)
    transposes_S1024x512_S512x1024_1_0) bitsLt_bf16_f32

/-- The centres' squared norms, as a row. -/
def normsRow (c : FVec Ideal S1024x512 .f32) : FVec Ideal S1x1024 .f32 :=
  shapeCast S1x1024 (Host.reduceAdd (mulf c c) (constant (F := Ideal) S_ .f32 0x00000000#32) reducesTo_S1024x512_S1024_d1 h_S_)
    shapeCasts_S1024_S1x1024

/-- The negated inverse squared widths, as a row. -/
def widthsRow (s : FVec Ideal S1024 .f32) : FVec Ideal S1x1024 .f32 :=
  shapeCast S1x1024 (Host.negf (Host.exp (mulf (broadcastInDim S1024 ![] bcast_S_S1024 (constant (F := Ideal) S_ .f32 0xC0000000#32)) s)))
    shapeCasts_S1024_S1x1024

variable (m : (ℓ : Loc nD τ sig) → Buf (Elt Ideal) ℓ)

/-- When the kernel is launched its second operand holds the scaled, transposed centres, -/
theorem V_scaledT (c : Dev nD) : (V m c main_call0_v11 : S512x1024.Idx → EReal) = scaledT (m ((c : Thread nD τ).loc main_arg1)) := by
  dsimp only [Gen.V, Gen.hostOps0]; after_results; rfl

/-- its third the centres' squared norms, -/
theorem V_normsRow (c : Dev nD) : (V m c main_call0_v2 : S1x1024.Idx → EReal) = normsRow (m ((c : Thread nD τ).loc main_arg1)) := by
  dsimp only [Gen.V, Gen.hostOps0]; after_results; rfl

/-- and its fourth the negated inverse squared widths. -/
theorem V_widthsRow (c : Dev nD) : (V m c main_call0_v7 : S1x1024.Idx → EReal) = widthsRow (m ((c : Thread nD τ).loc main_arg2)) := by
  dsimp only [Gen.V, Gen.hostOps0]; after_results; rfl

/-- w[k, q] = (-2) · c[q, k]. -/
theorem scaledT_apply (c : FVec Ideal S1024x512 .f32) (k : Fin 512) (q : Fin 1024) :
    scaledT c (ix2 k q) = Ideal.ofBits .f32 0xC0000000#32 * c (ix2 q k) := by
  unfold scaledT
  rw [truncf_apply, transpose_apply [1, 0] _ transposes_S1024x512_S512x1024_1_0 (ix2 k q) (ix2 q k) (fun b => match b with
    | ⟨0, _⟩ => rfl
    | ⟨1, _⟩ => rfl)]
  rfl

/-- Position q of a vector of length 1024 and position (0, q) of the [1, 1024] row are the same row-major position. -/
theorem row_apply {α : Type} (v : S1024.Idx → α) (q : Fin 1024) :
    shapeCast S1x1024 v shapeCasts_S1024_S1x1024 (ix2 0 q) = v (ix1 q) := by
  refine shapeCast_apply v shapeCasts_S1024_S1x1024 _ _ ?_
  rw [Shape.rowMajor_val_one, Shape.rowMajor_val_two]
  show q.val = 0 * 1024 + q.val
  omega

/-- u[0, q] = 0 + Σ_k c[q,k]·c[q,k]. -/
theorem normsRow_apply (c : FVec Ideal S1024x512 .f32) (q : Fin 1024) :
    normsRow c (ix2 0 q) = Ideal.ofBits .f32 0x00000000#32 + ∑ k : Fin 512, c (ix2 q k) * c (ix2 q k) := by
  unfold normsRow
  rw [row_apply]
  simp only [Host.reduceAdd, Ideal.hostReduceAdd_def]
  rw [Ideal.hostReduceAdd_single reducesTo_S1024x512_S1024_d1 (by decide)]
  refine congrArg (_ + ·) (Finset.sum_congr rfl fun k _ => ?_)
  exact congrArg (mulf c c) (funext fun a => Fin.ext (by match a with | ⟨0, _⟩ => rfl | ⟨1, _⟩ => rfl))

/-- n[0, q] = -exp((-2) · s[q]). -/
theorem widthsRow_apply (s : FVec Ideal S1024 .f32) (q : Fin 1024) :
    widthsRow s (ix2 0 q) = -(Ideal.exp (Ideal.ofBits .f32 0xC0000000#32 * s (ix1 q))) := by
  unfold widthsRow
  rw [row_apply]
  rfl

end Cert.KernelIdeal.Host

end
-- ==== Proof.RbfLaw.lean ====
/-
  The Gaussian radial basis value, and the two ways the programs spell it.

  For a row x of the input, a centre c and a log-width s, the basis value is
      exp( -( max(|x|² - 2 x·c + |c|², 0) · e^(-2s) ) ),
  the squared distance |x - c|² (clamped at zero) divided by the squared width (e^s)², negated and exponentiated.
  One program forms the clamped distance as |x|² + x·(-2c) + |c|² and multiplies it by -(e^(-2s)); the other takes the
  square root of the clamped distance, divides by e^s, squares, negates. On REAL entries these agree:
  x·(-2c) = -2 (x·c) by distributivity over the finite sum, and (√M / e^s)² = M · e^(-2s) for M ≥ 0.
  Both laws fail at the infinities, so they are stated for real entries, carried into the extended reals.
-/
import Idealize.ShloMosaic.PureOps.Ideal
import Idealize.ShloMosaic.PureOps.Ideal.Laws
import Idealize.ShloMosaic.Lib.ValueIdx

noncomputable section

namespace Rbf

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals is monotone, so it commutes with the maximum of two numbers. -/
theorem coe_max (x y : ℝ) : ((max x y : ℝ) : EReal) = max (x : EReal) (y : EReal) :=
  EReal.coe_strictMono.monotone.map_max

/-- The word of `-2.0` denotes the real -2. -/
theorem ofBits_neg_two : Ideal.ofBits .f32 0xC0000000#32 = ((-2 : ℝ) : EReal) := by
  simp [Ideal.ofBits, Ideal.ieee, -EReal.coe_mul]; norm_num

/-- The word of `2.0` denotes the real 2. -/
theorem ofBits_two : Ideal.ofBits .f32 0x40000000#32 = ((2 : ℝ) : EReal) := by
  simp [Ideal.ofBits, Ideal.ieee, -EReal.coe_mul]; norm_num

/-- The basis value from the three scalar products |x|², x·c, |c|² and the log-width s. -/
def gauss (a b d s : ℝ) : ℝ := Real.exp (-(max (a - 2 * b + d) 0 * Real.exp (-2 * s)))

/-- The first spelling on real numbers: the clamped distance, built with the cross term already scaled by -2,
    times the negated inverse squared width. -/
theorem scaled_form (a b d s : ℝ) :
    Ideal.exp (max (((a : EReal) + ((-2 * b : ℝ) : EReal)) + (d : EReal)) 0 * (-(Ideal.exp (((-2 : ℝ) : EReal) * (s : EReal)))))
      = (gauss a b d s : EReal) := by
  rw [← EReal.coe_mul, Ideal.exp_coe, ← EReal.coe_neg, ← EReal.coe_add, ← EReal.coe_add, ← EReal.coe_zero, ← coe_max,
    ← EReal.coe_mul, Ideal.exp_coe]
  unfold gauss
  congr 2
  rw [mul_neg]
  congr 3
  ring

/-- The second spelling on real numbers: root of the clamped distance over the width, squared, negated. -/
theorem rooted_form (a b d s : ℝ) :
    Ideal.exp (-(Ideal.div (Ideal.sqrt (max (((a : EReal) - ((2 : ℝ) : EReal) * (b : EReal)) + (d : EReal)) 0)) (Ideal.exp (s : EReal))
        * Ideal.div (Ideal.sqrt (max (((a : EReal) - ((2 : ℝ) : EReal) * (b : EReal)) + (d : EReal)) 0)) (Ideal.exp (s : EReal))))
      = (gauss a b d s : EReal) := by
  have hM : 0 ≤ max (a - 2 * b + d) 0 := le_max_right _ _
  rw [← EReal.coe_mul, ← EReal.coe_sub, ← EReal.coe_add, ← EReal.coe_zero, ← coe_max, Ideal.sqrt_coe,
    if_neg (not_lt.mpr hM), Ideal.exp_coe, Ideal.div_coe (Real.exp_ne_zero s), ← EReal.coe_mul, ← EReal.coe_mul, ← EReal.coe_neg,
    Ideal.exp_coe]
  unfold gauss
  congr 3
  have h1 : Real.exp (-2 * s) = (1 / Real.exp s) * (1 / Real.exp s) := by
    rw [one_div, ← Real.exp_neg, ← Real.exp_add]; congr 1; ring
  rw [h1]
  calc Real.sqrt (max (a - 2 * b + d) 0) * (1 / Real.exp s) * (Real.sqrt (max (a - 2 * b + d) 0) * (1 / Real.exp s))
      = (Real.sqrt (max (a - 2 * b + d) 0) * Real.sqrt (max (a - 2 * b + d) 0)) * ((1 / Real.exp s) * (1 / Real.exp s)) := by ring
    _ = max (a - 2 * b + d) 0 * ((1 / Real.exp s) * (1 / Real.exp s)) := by rw [Real.mul_self_sqrt hM]

/-! ## The two spellings over rows of real entries -/

/-- A scalar product of real rows, carried into the extended reals term by term. -/
theorem coe_dot (X Y : Fin 512 → ℝ) : ∑ k, (X k : EReal) * (Y k : EReal) = ((∑ k, X k * Y k : ℝ) : EReal) := by
  rw [coe_sum]; exact Finset.sum_congr rfl fun k _ => (EReal.coe_mul _ _).symm

/-- The scalar product with the centre row pre-scaled by the word of `-2.0` is -2 times the scalar product:
    distributivity over the finite sum, which real entries allow. -/
theorem coe_dot_scaled (X C : Fin 512 → ℝ) :
    ∑ k, (X k : EReal) * (Ideal.ofBits .f32 0xC0000000#32 * (C k : EReal)) = ((-2 * ∑ k, X k * C k : ℝ) : EReal) := by
  rw [ofBits_neg_two, Finset.mul_sum, coe_sum]
  refine Finset.sum_congr rfl fun k _ => ?_
  rw [← EReal.coe_mul, ← EReal.coe_mul]
  congr 1; ring

/-- THE FIRST SPELLING at an entry, over the input row X, the centre row C and the log-width s: the squared norm of X,
    plus the scalar product of X with the pre-scaled centre, plus the centre's squared norm (a sum started at the zero
    word), clamped at the zero word, times the negated exponential of -2s. -/
theorem scaled_entry (X C : Fin 512 → ℝ) (s : ℝ) :
    Ideal.exp (max (((∑ k, (X k : EReal) * (X k : EReal)) + ∑ k, (X k : EReal) * (Ideal.ofBits .f32 0xC0000000#32 * (C k : EReal)))
          + (Ideal.ofBits .f32 0x00000000#32 + ∑ k, (C k : EReal) * (C k : EReal))) (Ideal.ofBits .f32 0x00000000#32)
        * (-(Ideal.exp (Ideal.ofBits .f32 0xC0000000#32 * (s : EReal)))))
      = (gauss (∑ k, X k * X k) (∑ k, X k * C k) (∑ k, C k * C k) s : EReal) := by
  rw [coe_dot_scaled, coe_dot, coe_dot, ofBits_neg_two, Ideal.ofBits_zero_f32, zero_add]
  exact scaled_form _ _ _ _

/-- THE SECOND SPELLING at an entry: the squared norms (sums started at the zero word) and the scalar product scaled by the
    word of `2.0`, clamped, rooted, divided by the exponential of s, squared, negated, exponentiated. -/
theorem rooted_entry (X C : Fin 512 → ℝ) (s : ℝ) :
    Ideal.exp (-(Ideal.div (Ideal.sqrt (max (((Ideal.ofBits .f32 0x00000000#32 + ∑ k, (X k : EReal) * (X k : EReal))
              - Ideal.ofBits .f32 0x40000000#32 * ∑ k, (X k : EReal) * (C k : EReal))
            + (Ideal.ofBits .f32 0x00000000#32 + ∑ k, (C k : EReal) * (C k : EReal))) (Ideal.ofBits .f32 0x00000000#32)))
          (Ideal.exp (s : EReal))
        * Ideal.div (Ideal.sqrt (max (((Ideal.ofBits .f32 0x00000000#32 + ∑ k, (X k : EReal) * (X k : EReal))
              - Ideal.ofBits .f32 0x40000000#32 * ∑ k, (X k : EReal) * (C k : EReal))
            + (Ideal.ofBits .f32 0x00000000#32 + ∑ k, (C k : EReal) * (C k : EReal))) (Ideal.ofBits .f32 0x00000000#32)))
          (Ideal.exp (s : EReal))))
      = (gauss (∑ k, X k * X k) (∑ k, X k * C k) (∑ k, C k * C k) s : EReal) := by
  rw [coe_dot, coe_dot, coe_dot, ofBits_two, Ideal.ofBits_zero_f32, zero_add, zero_add]
  exact rooted_form _ _ _ _

/-! ## The specification -/

open Idealize.ShloMosaic.ValueIdx in
/-- THE MATRIX OF BASIS VALUES of a real input matrix x (8192 rows of 512), real centres c (1024 rows of 512) and real
    log-widths s (1024): entry (i, j) is the basis value of row i of x against centre j. -/
def basis (x : (⟨2, ![8192, 512]⟩ : Shape).Idx → ℝ) (c : (⟨2, ![1024, 512]⟩ : Shape).Idx → ℝ) (s : (⟨1, ![1024]⟩ : Shape).Idx → ℝ) :
    (⟨2, ![8192, 1024]⟩ : Shape).Idx → EReal :=
  fun i => ((gauss (∑ k : Fin 512, x (ix2 (i 0) k) * x (ix2 (i 0) k)) (∑ k : Fin 512, x (ix2 (i 0) k) * c (ix2 (i 1) k))
    (∑ k : Fin 512, c (ix2 (i 1) k) * c (ix2 (i 1) k)) (s (ix1 (i 1))) : ℝ) : EReal)

end Rbf

end
-- ==== Proof.RbfBlocks.lean ====
/-
  From the blocks the kernel writes to the whole result matrix.

  The grid has 8 points; point t computes rows 1024·t … 1024·t + 1023 of the result, all 1024 columns. At point t the body
  holds rows 1024·t … of the input and — whole, at every point — the host's three operands. So entry (p, q) of the block
  point t writes is the first spelling of the basis value over input row 1024·t + p, centre q and log-width q, which on real
  inputs is entry (1024·t + p, q) of the matrix of basis values. The eight blocks tile the matrix (row r lies in block
  r / 1024), so after the run the result IS that matrix.
-/
import proofs.«115189_j23922967839461_2_alg».proof.Proof.Gen.KernelIdeal.Value
import proofs.«115189_j23922967839461_2_alg».proof.Proof.RbfBody
import proofs.«115189_j23922967839461_2_alg».proof.Proof.RbfHost
import proofs.«115189_j23922967839461_2_alg».proof.Proof.RbfLaw

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets : (![0, 0] : Fin 2 → Nat) = fun _ => 0 := funext fun a => by fin_cases a <;> rfl

/-- The index maps over the 8 grid points: the input block moves with the output block along the rows, every other
    coordinate of every block index is 0, and the output's row-block index is below 8. -/
theorem index_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 7 :=
  (by decide +kernel : ∀ t : Fin grid0.N, _)

/-- Every row block is some point's. -/
theorem index_onto : ∀ b : Fin 8, ∃ t : Fin cfg0.N, win0_4.index t = ![b.val, 0] :=
  (by decide +kernel : ∀ b : Fin 8, ∃ t : Fin grid0.N, win0_4.index t = ![b.val, 0])

/-- The body's result at (p, q) from blocks X, W, U, N that hold, at the positions the entry reads, row (i 0) of the real
    input, the scaled centre (i 1), its squared norm and its negated inverse squared width: entry i of the basis matrix. -/
theorem entry_of_blocks (xr : S8192x512.Idx → ℝ) (cr : S1024x512.Idx → ℝ) (sr : S1024.Idx → ℝ)
    (X : Vec Ideal S1024x512 .f32) (W : Vec Ideal S512x1024 .bf16) (U N : Vec Ideal S1x1024 .f32)
    (i : S8192x1024.Idx) (p q : Fin 1024)
    (hX : ∀ k : Fin 512, X (ix2 p k) = ((xr (ix2 (i 0) k) : ℝ) : EReal))
    (hW : ∀ k : Fin 512, W (ix2 k q) = Ideal.ofBits .f32 0xC0000000#32 * ((cr (ix2 (i 1) k) : ℝ) : EReal))
    (hU : U (ix2 0 q) = Ideal.ofBits .f32 0x00000000#32 + ∑ k : Fin 512, ((cr (ix2 (i 1) k) : ℝ) : EReal) * ((cr (ix2 (i 1) k) : ℝ) : EReal))
    (hN : N (ix2 0 q) = -(Ideal.exp (Ideal.ofBits .f32 0xC0000000#32 * ((sr (ix1 (i 1)) : ℝ) : EReal)))) :
    k0_pay1 (F := Ideal) X W U N (ix2 p q) = Rbf.basis xr cr sr i := by
  rw [Body.result_apply]
  simp only [hX, hW, hU, hN]
  exact Rbf.scaled_entry (fun k => xr (ix2 (i 0) k)) (fun k => cr (ix2 (i 1) k)) (sr (ix1 (i 1)))

variable (m : (ℓ : Loc nD τ sig) → Buf (Elt Ideal) ℓ) (ρ : Dev nD → PrngReg)

/-- WHAT POINT t WRITES BACK is block t of the basis matrix of the (real) inputs. -/
theorem flushed_eq (c : Dev nD) (xr : S8192x512.Idx → ℝ) (cr : S1024x512.Idx → ℝ) (sr : S1024.Idx → ℝ)
    (hx : m ((c : Thread nD τ).loc main_arg0) = fun i => ((xr i : ℝ) : EReal))
    (hc : m ((c : Thread nD τ).loc main_arg1) = fun i => ((cr i : ℝ) : EReal))
    (hs : m ((c : Thread nD τ).loc main_arg2) = fun i => ((sr i : ℝ) : EReal))
    (t : Fin cfg0.N) :
    (dats m 0 c).flushed 4 t = ((cfg0.win 4).blk t).view.read (Elt Ideal) (Rbf.basis xr cr sr) := by
  rw [Value.flushed4]
  unfold out0_4
  rw [View.canon_unit_zero zero_offsets]
  simp only [View.ld_unit_zero (S := S1024x512) zero_offsets, View.ld_unit_zero (S := S512x1024) zero_offsets,
    View.ld_unit_zero (S := S1x1024) zero_offsets]
  obtain ⟨e0, e1, e2, e3, e4, e5, e6, e7, e8, e9⟩ := index_facts t
  funext j
  obtain ⟨p, q, rfl⟩ : ∃ (p q : Fin 1024), j = ix2 p q := ⟨j 0, j 1, eq_ix2 j⟩
  show k0_pay1 (F := Ideal) (iblk m c 0 t) (iblk m c 1 t) (iblk m c 2 t) (iblk m c 3 t) (ix2 p q)
    = Rbf.basis xr cr sr (((cfg0.win 4).blk t).view.emb (ix2 p q))
  have hi0 : ((((cfg0.win 4).blk t).view.emb (ix2 p q)) 0).val = win0_4.index t (0 : Fin 2) * 1024 + 1 * p.val := rfl
  have hi1 : ((((cfg0.win 4).blk t).view.emb (ix2 p q)) 1).val = win0_4.index t (1 : Fin 2) * 1024 + 1 * q.val := rfl
  refine entry_of_blocks xr cr sr (iblk m c 0 t) (iblk m c 1 t) (iblk m c 2 t) (iblk m c 3 t)
    (((cfg0.win 4).blk t).view.emb (ix2 p q)) p q ?_ ?_ ?_ ?_
  · intro k
    show V m c main_arg0 (((cfg0.win 0).blk t).view.emb (ix2 p k)) = _
    rw [V_main_arg0, hx]
    refine congrArg (fun z => ((xr z : ℝ) : EReal)) (funext fun a => Fin.ext ?_)
    match a with
    | ⟨0, _⟩ =>
      show win0_0.index t (0 : Fin 2) * 1024 + 1 * p.val = ((((cfg0.win 4).blk t).view.emb (ix2 p q)) 0).val
      rw [hi0]; omega
    | ⟨1, _⟩ =>
      show win0_0.index t (1 : Fin 2) * 512 + 1 * k.val = k.val
      omega
  · intro k
    show (V m c main_call0_v11 : S512x1024.Idx → EReal) (((cfg0.win 1).blk t).view.emb (ix2 k q)) = _
    rw [Host.V_scaledT, hc]
    have hk : ((cfg0.win 1).blk t).view.emb (ix2 k q) = ix2 k q := funext fun a => Fin.ext (by
      match a with
      | ⟨0, _⟩ => show win0_1.index t (0 : Fin 2) * 512 + 1 * k.val = k.val; omega
      | ⟨1, _⟩ => show win0_1.index t (1 : Fin 2) * 1024 + 1 * q.val = q.val; omega)
    rw [hk, Host.scaledT_apply]
    refine congrArg (fun z => Ideal.ofBits .f32 0xC0000000#32 * ((cr z : ℝ) : EReal)) (funext fun a => Fin.ext ?_)
    match a with
    | ⟨0, _⟩ => show q.val = ((((cfg0.win 4).blk t).view.emb (ix2 p q)) 1).val; rw [hi1]; omega
    | ⟨1, _⟩ => rfl
  · show (V m c main_call0_v2 : S1x1024.Idx → EReal) (((cfg0.win 2).blk t).view.emb (ix2 0 q)) = _
    rw [Host.V_normsRow, hc]
    have hk : ((cfg0.win 2).blk t).view.emb (ix2 0 q) = ix2 0 q := funext fun a => Fin.ext (by
      match a with
      | ⟨0, _⟩ => show win0_2.index t (0 : Fin 2) * 1 + 1 * 0 = 0; omega
      | ⟨1, _⟩ => show win0_2.index t (1 : Fin 2) * 1024 + 1 * q.val = q.val; omega)
    rw [hk, Host.normsRow_apply]
    have hq : (ix2 q : Fin 512 → S1024x512.Idx) = fun k => ix2 ((((cfg0.win 4).blk t).view.emb (ix2 p q)) 1) k :=
      funext fun k => funext fun a => Fin.ext (by
        match a with
        | ⟨0, _⟩ => show q.val = ((((cfg0.win 4).blk t).view.emb (ix2 p q)) 1).val; rw [hi1]; omega
        | ⟨1, _⟩ => rfl)
    exact congrArg (fun f : Fin 512 → S1024x512.Idx => Ideal.ofBits .f32 0x00000000#32 + ∑ k : Fin 512, ((cr (f k) : ℝ) : EReal) * ((cr (f k) : ℝ) : EReal)) hq
  · show (V m c main_call0_v7 : S1x1024.Idx → EReal) (((cfg0.win 3).blk t).view.emb (ix2 0 q)) = _
    rw [Host.V_widthsRow, hs]
    have hk : ((cfg0.win 3).blk t).view.emb (ix2 0 q) = ix2 0 q := funext fun a => Fin.ext (by
      match a with
      | ⟨0, _⟩ => show win0_3.index t (0 : Fin 2) * 1 + 1 * 0 = 0; omega
      | ⟨1, _⟩ => show win0_3.index t (1 : Fin 2) * 1024 + 1 * q.val = q.val; omega)
    rw [hk, Host.widthsRow_apply]
    refine congrArg (fun z => -(Ideal.exp (Ideal.ofBits .f32 0xC0000000#32 * ((sr z : ℝ) : EReal)))) (funext fun a => Fin.ext ?_)
    match a with
    | ⟨0, _⟩ => show q.val = ((((cfg0.win 4).blk t).view.emb (ix2 p q)) 1).val; rw [hi1]; omega

/-- An index of the result matrix is in point t's block iff each coordinate is in the block's range on its axis. -/
theorem mem_block (t : Fin cfg0.N) (i : S8192x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v0).slice (win0_4.rect t)).set ↔ _
  rw [View.set_slice_whole, Rect.mem_set_unit]
  exact Iff.rfl

/-- The eight blocks tile the matrix: row r lies in block r / 1024. -/
theorem covered (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := index_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- THE RESULT MATRIX after the run is the matrix of basis values of the (real) inputs. -/
theorem final (c : Dev nD) (xr : S8192x512.Idx → ℝ) (cr : S1024x512.Idx → ℝ) (sr : S1024.Idx → ℝ)
    (hx : m ((c : Thread nD τ).loc main_arg0) = fun i => ((xr i : ℝ) : EReal))
    (hc : m ((c : Thread nD τ).loc main_arg1) = fun i => ((cr i : ℝ) : EReal))
    (hs : m ((c : Thread nD τ).loc main_arg2) = fun i => ((sr i : ℝ) : EReal)) :
    (dats m 0 c).arrAt 4 cfg0.N = Rbf.basis xr cr sr :=
  (dats m 0 c).arrAt_eq_of_cover 4 (Rbf.basis xr cr sr) (fun t _ => flushed_eq m c xr cr sr hx hc hs t) covered

end Cert.KernelIdeal.Blocks

end
-- ==== Proof.RbfRef.lean ====
/-
  The reference computes the matrix of basis values.

  Read one operation at a time, entry (i, j) of the reference's result is the second spelling of the basis value over
  row i of the input, row j of the centres and log-width j: the row sums and the matrix product are sums over the 512
  positions of those rows (the transposed centres read back at (j, k)), the broadcasts read the column of squared norms
  at i and the rows at j.
-/
import proofs.«115189_j23922967839461_2_alg».proof.Proof.Gen.ReferenceIdeal.Read
import proofs.«115189_j23922967839461_2_alg».proof.Proof.RbfLaw

noncomputable section

namespace Cert.ReferenceIdeal.Basis

open Cert.ReferenceIdeal Cert.ReferenceIdeal.Gen Cert.ReferenceIdeal.Read Idealize.ShloMosaic Idealize.ShloMosaic.ValueIdx

/-- On real inputs the reference's result is the matrix of basis values. -/
theorem result_eq_basis (x : S8192x512.Idx → ℝ) (c : S1024x512.Idx → ℝ) (s : S1024.Idx → ℝ) :
    val_main_v23 (F := Ideal) (fun j => (x j : EReal)) (fun j => (c j : EReal)) (fun j => (s j : EReal)) = Rbf.basis x c s := by
  funext i
  have ex : ∀ k : Fin 512, idx_main_v1 (idx_main_v2 (idx_main_v9 i)) k = ix2 (i 0) k := fun k =>
    funext fun a => Fin.ext (by match a with | ⟨0, _⟩ => rfl | ⟨1, _⟩ => rfl)
  have el : ∀ k : Fin 512, lidx_main_v6 i k = ix2 (i 0) k := fun k =>
    funext fun a => Fin.ext (by match a with | ⟨0, _⟩ => rfl | ⟨1, _⟩ => rfl)
  have er : ∀ k : Fin 512, idx_main_v5 (ridx_main_v6 i k) = ix2 (i 1) k := fun k =>
    funext fun a => Fin.ext (by match a with | ⟨0, _⟩ => rfl | ⟨1, _⟩ => rfl)
  have ec : ∀ k : Fin 512, idx_main_v4 (idx_main_v11 (idx_main_v12 i)) k = ix2 (i 1) k := fun k =>
    funext fun a => Fin.ext (by match a with | ⟨0, _⟩ => rfl | ⟨1, _⟩ => rfl)
  have es : idx_main_v18 (idx_main_v19 i) = ix1 (i 1) :=
    funext fun a => Fin.ext (by match a with | ⟨0, _⟩ => rfl)
  simp only [val_main_v23_apply, val_main_v22_apply, val_main_v21_apply, val_main_v20_apply, val_main_v19_apply, val_main_v18_apply,
    val_main_v17_apply, val_main_v16_apply, val_main_v15_apply, val_main_v14_apply, val_main_cst_2_apply, val_main_v13_apply,
    val_main_v12_apply, val_main_v11_apply, val_main_v10_apply, val_main_v9_apply, val_main_v8_apply, val_main_v7_apply,
    val_main_cst_1_apply, val_main_v6_apply, val_main_v5_apply, val_main_v4_apply, val_main_cst_0_apply, val_main_v3_apply,
    val_main_v2_apply, val_main_v1_apply, val_main_cst_apply, val_main_v0_apply, ex, el, er, ec, es,
    Ideal.hostUnary_exp_def, Ideal.hostUnary_sqrt_def, Ideal.hostNegf_def, Ideal.negf_def, Ideal.mulf_def, Ideal.hostDivf_def,
    Ideal.maximumf_def, Ideal.addf_def, Ideal.subf_def, Ideal.ofBits_def]
  exact Rbf.rooted_entry (fun k => x (ix2 (i 0) k)) (fun k => c (ix2 (i 1) k)) (s (ix1 (i 1)))

end Cert.ReferenceIdeal.Basis

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.RbfFinite.lean ====
/-
  What the precondition says: every entry of the three inputs is a real number.

  The precondition takes, for each input, the conjunction over all entries of "the absolute value is below +∞", and then
  the conjunction of the three. Each conjunct says its array is the image of its real parts (Proof/LibFiniteEntries.lean).
-/
import proofs.«115189_j23922967839461_2_alg».proof.Pre_finite_inputs
import proofs.«115189_j23922967839461_2_alg».proof.Proof.LibFiniteEntries
import Idealize.ShloMosaic.Lib.ValueIdx

noncomputable section

namespace Cert.Pre_finite_inputs.Finite

open Cert.Pre_finite_inputs Idealize.ShloMosaic

variable [Facts]

/-- Under the precondition every input is the image of its real parts. -/
theorem entries_real (x : FVec Ideal S8192x512 .f32) (c : FVec Ideal S1024x512 .f32) (s : FVec Ideal S1024 .f32)
    (h : fn (F := Ideal) x c s = fun _ => 1#1) :
    (x = fun i => ((x i).toReal : EReal)) ∧ (c = fun i => ((c i).toReal : EReal)) ∧ (s = fun i => ((s i).toReal : EReal)) := by
  have h0 := congrFun h ValueIdx.ix0
  dsimp only [fn] at h0
  change IntOp.andi (IntOp.andi _ _) _ = 1#1 at h0
  obtain ⟨h12, h3⟩ := IntOp.andi_eq_one.1 h0
  obtain ⟨h1, h2⟩ := IntOp.andi_eq_one.1 h12
  exact ⟨LibFiniteEntries.real_of_all_abs_lt x _ (fun _ => rfl) _ _ _ _ h1,
    LibFiniteEntries.real_of_all_abs_lt c _ (fun _ => rfl) _ _ _ _ h2,
    LibFiniteEntries.real_of_all_abs_lt s _ (fun _ => rfl) _ _ _ _ h3⟩

end Cert.Pre_finite_inputs.Finite

end
-- ==== Proof.lean ====
/-
  A radial-basis layer: for each input row x_i (8192 rows of 512), each centre c_j (1024 rows of 512) and log-width s_j,
      out[i, j] = exp( -( |x_i - c_j|² / (e^{s_j})² ) ),   |x_i - c_j|² = max(|x_i|² - 2 x_i·c_j + |c_j|², 0).

  The kernel prepares on the host the centres scaled by -2 and transposed, the squared norms |c_j|² and the factors
  -e^{-2 s_j}; each of its 8 grid points takes 1024 input rows, forms |x_i|² by a lane sum and x_i·(-2 c_j) by one matrix
  product, adds |c_j|², clamps at zero, multiplies by -e^{-2 s_j} and exponentiates. The reference forms the same clamped
  squared distance with the scalar product scaled by 2 and subtracted, takes its root, divides by e^{s_j}, squares,
  negates and exponentiates.

  At exact arithmetic on the extended reals the two agree once every input entry is a real number, which is the
  precondition: then -2 leaves the finite sum (distributivity, false at the infinities), and (√M / e^s)² = M · e^{-2s}
  for M ≥ 0. The proof names the common value (Proof/RbfLaw.lean: `Rbf.basis` of the inputs' real parts), reads the
  kernel's result block by block as that matrix (Proof/RbfBody.lean the body at an entry, Proof/RbfHost.lean the host's
  three operands at an entry, Proof/RbfBlocks.lean the eight blocks tiling the result), reads the reference's result
  as the same matrix (Proof/RbfRef.lean), and takes the real parts from the precondition (Proof/RbfFinite.lean).
  The three frames are the generated ones; the idealization rewrote nothing, so it is preserved trivially.
-/
import proofs.«115189_j23922967839461_2_alg».proof.Defs
import proofs.«115189_j23922967839461_2_alg».proof.Proof.Gen.Kernel
import proofs.«115189_j23922967839461_2_alg».proof.Proof.Gen.Kernel.Skeleton
import proofs.«115189_j23922967839461_2_alg».proof.Proof.Gen.Kernel.Launch
import proofs.«115189_j23922967839461_2_alg».proof.Proof.Gen.Kernel.Points
import proofs.«115189_j23922967839461_2_alg».proof.Proof.Gen.Kernel.Frame
import proofs.«115189_j23922967839461_2_alg».proof.Proof.Gen.KernelIdeal
import proofs.«115189_j23922967839461_2_alg».proof.Proof.Gen.KernelIdeal.Skeleton
import proofs.«115189_j23922967839461_2_alg».proof.Proof.Gen.KernelIdeal.Launch
import proofs.«115189_j23922967839461_2_alg».proof.Proof.Gen.KernelIdeal.Points
import proofs.«115189_j23922967839461_2_alg».proof.Proof.Gen.KernelIdeal.Frame
import proofs.«115189_j23922967839461_2_alg».proof.Proof.Gen.ReferenceIdeal
import proofs.«115189_j23922967839461_2_alg».proof.Proof.Gen.Pre_finite_inputs
import proofs.«115189_j23922967839461_2_alg».proof.Proof.Gen.KernelIdeal.Value
import proofs.«115189_j23922967839461_2_alg».proof.Proof.Gen.ReferenceIdeal.Run
import proofs.«115189_j23922967839461_2_alg».proof.Proof.Gen.ReferenceIdeal.Read
import proofs.«115189_j23922967839461_2_alg».proof.Proof.RbfBlocks
import proofs.«115189_j23922967839461_2_alg».proof.Proof.RbfRef
import proofs.«115189_j23922967839461_2_alg».proof.Proof.RbfFinite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the basis matrix of the inputs' real parts: the kernel's eight blocks tile it, the reference's
    operations compute it entry by entry; the inputs are their real parts by the precondition. -/
theorem algebraic : Cert.algebraic_KernelIdeal_ReferenceIdeal := by
  intro m ρ m' ρ' hpre hagree
  have hfin := fun c => Cert.Pre_finite_inputs.Finite.entries_real _ _ _ (hpre c)
  refine ⟨fun c => Rbf.basis (fun i => (m ((c.tc : Thread Cert.KernelIdeal.nD Cert.KernelIdeal.τ).loc Cert.KernelIdeal.main_arg0) i).toReal)
      (fun i => (m ((c.tc : Thread Cert.KernelIdeal.nD Cert.KernelIdeal.τ).loc Cert.KernelIdeal.main_arg1) i).toReal)
      (fun i => (m ((c.tc : Thread Cert.KernelIdeal.nD Cert.KernelIdeal.τ).loc Cert.KernelIdeal.main_arg2) i).toReal), ?_, ?_⟩
  · refine (θ_run Cert.KernelIdeal.defs _ _).mono (fun r h c => ⟨(h c).1.trans ?_, (h c).2⟩)
      (Cert.KernelIdeal.Value.run_blocks (F := Ideal) m ρ)
    exact Cert.KernelIdeal.Blocks.final m c _ _ _ (hfin c).1 (hfin c).2.1 (hfin c).2.2
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v23_eq, (hagree c).1, (hagree c).2.1, (hagree c).2.2]
    exact (congr (congr (congrArg (Cert.ReferenceIdeal.Read.val_main_v23 (F := Ideal)) (hfin c).1) (hfin c).2.1) (hfin c).2.2).trans
      (Cert.ReferenceIdeal.Basis.result_eq_basis _ _ _)

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
